-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x64 : Shape := ⟨2, ![256, 64]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S65536x256 .f32) (main_arg1 : FVec F S65536x256 .f32) (main_arg2 : FVec F S256x64 .f32) (main_arg3 : FVec F S256x64 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S65536x256 : Shape := ⟨2, ![65536, 256]⟩
abbrev S256x64 : Shape := ⟨2, ![256, 64]⟩
abbrev S32768x128 : Shape := ⟨2, ![32768, 128]⟩
abbrev S4096x256 : Shape := ⟨2, ![4096, 256]⟩
abbrev S2048x128 : Shape := ⟨2, ![2048, 128]⟩
abbrev S4096x64 : Shape := ⟨2, ![4096, 64]⟩
abbrev S65536x64 : Shape := ⟨2, ![65536, 64]⟩

abbrev nBuf : Space → Nat
  | .hbm => 8
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x64, .f32⟩
  | .hbm, ⟨3, _⟩ => ⟨S256x64, .f32⟩
  | .hbm, ⟨4, _⟩ => ⟨S256x64, .bf16⟩
  | .hbm, ⟨5, _⟩ => ⟨S256x64, .bf16⟩
  | .hbm, ⟨6, _⟩ => ⟨S32768x128, .f32⟩
  | .hbm, ⟨7, _⟩ => ⟨S65536x64, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x64, .bf16⟩
  | .local _ .vmem, ⟨5, _⟩ => ⟨S256x64, .bf16⟩
  | .local _ .vmem, ⟨6, _⟩ => ⟨S2048x128, .f32⟩
  | .local _ .vmem, ⟨7, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S4096x64_S2048x128 : S4096x64.ShapeCasts S2048x128
  inb_S2048x128_S2048x128_0_0 : ∀ a, (![0, 0] : Fin 2 → Nat) a + S2048x128.size a ≤ S2048x128.size a
  h_S2048x128 : 0 < S2048x128.numel
  shapeCasts_S32768x128_S65536x64 : S32768x128.ShapeCasts S65536x64
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S32768x128.size a
  hwx0_4 : ∀ i : grid0.Coords, EltTy.bits .f32 = 32 ∨ (Rect.block (s := S32768x128) S2048x128.size (cc0_transform_4 i) (hinb0_4 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x64 : Shape := ⟨2, ![256, 64]⟩
abbrev S65536x64 : Shape := ⟨2, ![65536, 64]⟩

abbrev nBuf : Space → Nat
  | .hbm => 7
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x64, .f32⟩
  | .hbm, ⟨3, _⟩ => ⟨S256x64, .f32⟩
  | .hbm, ⟨4, _⟩ => ⟨S65536x64, .f32⟩
  | .hbm, ⟨5, _⟩ => ⟨S65536x64, .f32⟩
  | .hbm, ⟨6, _⟩ => ⟨S65536x64, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S65536x256_S256x64_S65536x64_1_0_0_1_n_n_wf : DotDims.WF S65536x256 S256x64 S65536x64 [1] [0] [0] [1] [] []

variable [Facts₀]

def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf

class Facts : Prop extends Facts₀ where

variable [Facts]
-- ==== Proof.TwoDots.lean ====
/-
  The one function both programs compute, on the extended reals: two matrix products over the same contraction
  length, added entry by entry. For matrices x, x' with R rows and 256 columns and w, w' with 256 rows and 64
  columns,

      twoDots R x x' w w' r c  =  Σ_k x(r, k) · w(k, c)  +  Σ_k x'(r, k) · w'(k, c),     k = 0 … 255.

  Nothing here mentions a program. The kernel computes this function one slab of 4096 rows at a time (R = 4096),
  and the reference computes it for all 65536 rows at once (R = 65536); a slab of the whole result is the result
  of the slab, because row r of the result reads only row r of x and x'. Only sums and products of extended reals
  appear, term for term the same on both sides, so no finiteness of the inputs is needed anywhere.
-/
import Idealize.ShloMosaic.Lib.ValueIdx
import Idealize.ShloMosaic.PureOps.Ideal.Laws

noncomputable section

namespace Cert.TwoDots

open Idealize.ShloMosaic Idealize.ShloMosaic.ValueIdx

/-- Entry (r, c) of x·w + x'·w'. -/
def twoDots (R : Nat) (x x' : (⟨2, ![R, 256]⟩ : Shape).Idx → EReal) (w w' : (⟨2, ![256, 64]⟩ : Shape).Idx → EReal)
    (r : Fin R) (c : Fin 64) : EReal :=
  (∑ k : Fin 256, x (ix2 r k) * w (ix2 k c)) + ∑ k : Fin 256, x' (ix2 r k) * w' (ix2 k c)

/-- The whole result, as an array with R rows and 64 columns. -/
def twoDotsArr (R : Nat) (x x' : (⟨2, ![R, 256]⟩ : Shape).Idx → EReal) (w w' : (⟨2, ![256, 64]⟩ : Shape).Idx → EReal) :
    (⟨2, ![R, 64]⟩ : Shape).Idx → EReal :=
  fun i => twoDots R x x' w w' (i 0) (i 1)

/-- Row r of the result depends on x and x' through their row r only: if two pairs of left factors agree on one
    row (possibly at different row numbers r, r' of differently tall matrices), the results agree on that row. -/
theorem twoDots_congr_row {R R' : Nat} (x x' : (⟨2, ![R, 256]⟩ : Shape).Idx → EReal)
    (y y' : (⟨2, ![R', 256]⟩ : Shape).Idx → EReal) (w w' : (⟨2, ![256, 64]⟩ : Shape).Idx → EReal)
    (r : Fin R) (r' : Fin R') (c : Fin 64)
    (h : ∀ k : Fin 256, x (ix2 r k) = y (ix2 r' k)) (h' : ∀ k : Fin 256, x' (ix2 r k) = y' (ix2 r' k)) :
    twoDots R x x' w w' r c = twoDots R' y y' w w' r' c := by
  unfold twoDots
  congr 1
  · exact Finset.sum_congr rfl fun k _ => by rw [h k]
  · exact Finset.sum_congr rfl fun k _ => by rw [h' k]

end Cert.TwoDots

end
-- ==== Proof.RefIsTwoDots.lean ====
/-
  The reference is the two-product function. Its program is three host operations: a dot_general of the first
  input with the first weight (contracting the 256 columns against the 256 rows), the same of the second pair, and
  their entrywise sum. Read at an entry (r, c) of the 65536 × 64 result, each dot_general is the sum over k of
  left(r, k) · right(k, c), so the result is twoDots at R = 65536, entry by entry.
-/
import proofs.«147001_j76441827934768_2_alg».proof.Proof.Gen.ReferenceIdeal.Read
import proofs.«147001_j76441827934768_2_alg».proof.Proof.TwoDots

noncomputable section

namespace Cert.ReferenceIdeal.RefValue

open Idealize.ShloMosaic Idealize.ShloMosaic.ValueIdx Cert.ReferenceIdeal Cert.TwoDots

/-- The left operand's entry a dot_general reads for result entry i and contraction step k is (row of i, k). -/
theorem lidx0_eq (i : S65536x64.Idx) (k : Fin 256) : Read.lidx_main_v0 i k = ix2 (i 0) k :=
  funext fun a => Fin.ext (by match a with | ⟨0, _⟩ => rfl | ⟨1, _⟩ => rfl)
/-- The right operand's is (k, column of i). -/
theorem ridx0_eq (i : S65536x64.Idx) (k : Fin 256) : Read.ridx_main_v0 i k = ix2 k (i 1) :=
  funext fun a => Fin.ext (by match a with | ⟨0, _⟩ => rfl | ⟨1, _⟩ => rfl)
theorem lidx1_eq (i : S65536x64.Idx) (k : Fin 256) : Read.lidx_main_v1 i k = ix2 (i 0) k :=
  funext fun a => Fin.ext (by match a with | ⟨0, _⟩ => rfl | ⟨1, _⟩ => rfl)
theorem ridx1_eq (i : S65536x64.Idx) (k : Fin 256) : Read.ridx_main_v1 i k = ix2 k (i 1) :=
  funext fun a => Fin.ext (by match a with | ⟨0, _⟩ => rfl | ⟨1, _⟩ => rfl)

/-- The reference's last stage, as a function of the four inputs, is x·w + x'·w' over all 65536 rows. -/
theorem ref_eq (x0 x1 : S65536x256.Idx → EReal) (x2 x3 : S256x64.Idx → EReal) :
    Read.val_main_v2 (F := Ideal) x0 x1 x2 x3 = twoDotsArr 65536 x0 x1 x2 x3 := by
  funext i
  rw [Read.val_main_v2_apply, Read.val_main_v0_apply, Read.val_main_v1_apply]
  simp only [lidx0_eq, ridx0_eq, lidx1_eq, ridx1_eq]
  rfl

end Cert.ReferenceIdeal.RefValue

end
-- ==== Proof.Payload.lean ====
/-
  What the kernel body computes from the blocks it loads, read at one entry.

  At a grid point the body loads a slab of 4096 rows of each input (4096 × 256), and both weights whole (256 × 64).
  It multiplies each slab with its weight on the matrix unit into a zero accumulator, adds the two 4096 × 64
  products, and stores the sum re-laid as 2048 × 128: two consecutive 64-wide rows side by side in one 128-wide row,
  the row-major order of the entries unchanged. On the extended reals the format changes in front of the matrix
  unit are the identity, and a product into a zero accumulator is the plain sum over the 256 contraction steps. So
  entry (p, q) of the stored block is entry (2p + q / 64, q mod 64) of x·w + x'·w' of the loaded slabs.
-/
import proofs.«147001_j76441827934768_2_alg».proof.Proof.Gen.KernelIdeal.Skeleton
import proofs.«147001_j76441827934768_2_alg».proof.Proof.TwoDots
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.TwoDots

/-- The matrix unit's dimension numbers: a 4096 × 256 slab times a 256 × 64 weight, contracting the slab's columns
    against the weight's rows. -/
abbrev slabDot : DotDims S4096x256 S256x64 S4096x64 := dot_S4096x256_S256x64_S4096x64_1_0_0_1_n_n

/-- For result entry i and contraction index q the slab is read in i's row, -/
theorem lhs_row (i : S4096x64.Idx) (q : slabDot.contr.Idx) : (slabDot.lhsIdx i q 0).val = (i 0).val := by
  unfold DotDims.lhsIdx
  rw [dif_neg (show ¬(0 : Fin S4096x256.rank) ∈ slabDot.lhsBatch by decide), dif_pos (show (0 : Fin S4096x256.rank) ∈ slabDot.lhsNonContracting by decide)]
  rfl
/-- at column q; -/
theorem lhs_col (i : S4096x64.Idx) (q : slabDot.contr.Idx) : (slabDot.lhsIdx i q 1).val = (q ⟨0, by decide⟩).val :=
  slabDot.lhsIdx_val_of_single rfl i q
/-- the weight at row q, -/
theorem rhs_row (i : S4096x64.Idx) (q : slabDot.contr.Idx) : (slabDot.rhsIdx i q 0).val = (q ⟨0, by decide⟩).val :=
  slabDot.rhsIdx_val_of_single rfl i q
/-- in i's column. -/
theorem rhs_col (i : S4096x64.Idx) (q : slabDot.contr.Idx) : (slabDot.rhsIdx i q 1).val = (i 1).val := by
  unfold DotDims.rhsIdx
  rw [dif_neg (show ¬(1 : Fin S256x64.rank) ∈ slabDot.rhsBatch by decide), dif_pos (show (1 : Fin S256x64.rank) ∈ slabDot.rhsNonContracting by decide)]
  rfl

/-- A slab times a weight into the zero accumulator, at entry (r, c): the sum over k of slab(r, k) · weight(k, c). -/
theorem slab_matmul (x : FVec Ideal S4096x256 .bf16) (w : FVec Ideal S256x64 .bf16) (r : Fin 4096) (c : Fin 64) :
    matmul slabDot none x w (constant (F := Ideal) S4096x64 .f32 0x00000000#32) (ix2 r c)
      = ∑ k : Fin 256, x (ix2 r k) * w (ix2 k c) := by
  simp only [matmul]
  rw [Ideal.matmul_constant_zero_apply, ← Equiv.sum_comp (contrEquiv1 slabDot 256 rfl rfl).symm]
  refine Finset.sum_congr rfl fun k _ => ?_
  have hk := contrEquiv1_symm_val slabDot 256 rfl rfl k
  have el : slabDot.lhsIdx (ix2 r c) ((contrEquiv1 slabDot 256 rfl rfl).symm k) = ix2 r k := funext fun a => Fin.ext (by
    match a with
    | ⟨0, _⟩ => exact lhs_row _ _
    | ⟨1, _⟩ => exact (lhs_col _ _).trans hk)
  have er : slabDot.rhsIdx (ix2 r c) ((contrEquiv1 slabDot 256 rfl rfl).symm k) = ix2 k c := funext fun a => Fin.ext (by
    match a with
    | ⟨0, _⟩ => exact (rhs_row _ _).trans hk
    | ⟨1, _⟩ => exact rhs_col _ _)
  rw [el, er]

/-- The stored block at entry (p, q), from the loaded blocks: entry (2p + q / 64, q mod 64) of the two products'
    sum. The re-laying keeps the row-major position: (2p + q / 64) · 64 + q mod 64 = 128 p + q. -/
theorem payload_at (x0 x1 : Vec Ideal S4096x256 .f32) (x2 x3 : Vec Ideal S256x64 .bf16) (p : Fin 2048) (q : Fin 128) :
    k0_pay1 (F := Ideal) x0 x1 x2 x3 (ix2 p q)
      = twoDots 4096 x0 x1 x2 x3 ⟨2 * p.val + q.val / 64, by omega⟩ ⟨q.val % 64, by omega⟩ := by
  unfold k0_pay1
  refine (shapeCast_apply _ _ (ix2 p q) (ix2 (n0 := 4096) (n1 := 64) ⟨2 * p.val + q.val / 64, by omega⟩ ⟨q.val % 64, by omega⟩) ?_).trans ?_
  · rw [Shape.rowMajor_val_two, Shape.rowMajor_val_two]
    show (2 * p.val + q.val / 64) * 64 + q.val % 64 = p.val * 128 + q.val
    omega
  · rw [addf_apply, slab_matmul, slab_matmul, shapeCast_self, shapeCast_self]
    rfl

end Cert.KernelIdeal.Body

end
-- ==== Proof.Blocks.lean ====
/-
  From what each grid point writes back to the whole output array of the region.

  The grid has 16 points. Point t stages rows 4096 t … 4096 t + 4095 of each input and both weights whole, and
  writes back rows 2048 t … 2048 t + 2047 of the 32768 × 128 output array. The stored block at (p, q) is entry
  (2p + q / 64, q mod 64) of the slabs' two-product sum; since a row of that sum reads only the same row of the
  inputs, it is entry (4096 t + 2p + q / 64, q mod 64) of the two-product sum Z of the WHOLE inputs. That entry of
  the 65536 × 64 array Z and entry (2048 t + p, q) of the 32768 × 128 output array have one row-major position,
  262144 t + 128 p + q: every point writes back its block of Z re-laid as 32768 × 128. The sixteen blocks cover
  the output array (row i lies in block i / 2048), so after the region the output array IS Z re-laid.
-/
import proofs.«147001_j76441827934768_2_alg».proof.Proof.Gen.KernelIdeal.Frame
import proofs.«147001_j76441827934768_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.TwoDots Cert.KernelIdeal.Body
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- The 65536 × 64 array and the 32768 × 128 array have as many entries. -/
theorem relay : S65536x64.ShapeCasts S32768x128 := by decide

/-- Z: x·w + x'·w' of the four arrays the region stages, as the region finds them. -/
def wholeSum (c : Dev nD) : S65536x64.Idx → EReal :=
  twoDotsArr 65536 (V m c main_arg0) (V m c main_arg1) (V m c main_v0) (V m c main_v1)

/-- Z re-laid as 32768 × 128, row-major order kept: what the region's output array ends holding. -/
def relaid (c : Dev nD) : S32768x128.Idx → EReal := shapeCast S32768x128 (wholeSum m c) relay

/-- The block index maps, decided over the 16 points: the two inputs' row blocks move with the output's, every
    column block and both weights' blocks stay at 0. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every one of the 16 row blocks of the output is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- Entry (r, k) of the first input's slab at point t is entry (4096 · (t's output row block) + r, k) of the array. -/
theorem read_x (c : Dev nD) (t : Fin cfg0.N) (r : Fin 4096) (k : Fin 256) (i : S65536x256.Idx)
    (h0 : (i 0).val = win0_4.index t (0 : Fin 2) * 4096 + r.val) (h1 : (i 1).val = k.val) :
    iblk m c 0 t (ix2 r k) = V m c main_arg0 i := by
  show V m c main_arg0 (((cfg0.win 0).blk t).view.emb (ix2 r k)) = V m c main_arg0 i
  have e : ((cfg0.win 0).blk t).view.emb (ix2 r k) = i := by
    obtain ⟨e0, e1, -⟩ := idx_facts t
    funext a; apply Fin.ext
    match a with
    | ⟨0, _⟩ => show win0_0.index t (0 : Fin 2) * 4096 + 1 * r.val = (i 0).val; omega
    | ⟨1, _⟩ => show win0_0.index t (1 : Fin 2) * 256 + 1 * k.val = (i 1).val; omega
  rw [e]

/-- The same for the second input. -/
theorem read_x' (c : Dev nD) (t : Fin cfg0.N) (r : Fin 4096) (k : Fin 256) (i : S65536x256.Idx)
    (h0 : (i 0).val = win0_4.index t (0 : Fin 2) * 4096 + r.val) (h1 : (i 1).val = k.val) :
    iblk m c 1 t (ix2 r k) = V m c main_arg1 i := by
  show V m c main_arg1 (((cfg0.win 1).blk t).view.emb (ix2 r k)) = V m c main_arg1 i
  have e : ((cfg0.win 1).blk t).view.emb (ix2 r k) = i := by
    obtain ⟨-, -, e0, e1, -⟩ := idx_facts t
    funext a; apply Fin.ext
    match a with
    | ⟨0, _⟩ => show win0_1.index t (0 : Fin 2) * 4096 + 1 * r.val = (i 0).val; omega
    | ⟨1, _⟩ => show win0_1.index t (1 : Fin 2) * 256 + 1 * k.val = (i 1).val; omega
  rw [e]

/-- A weight's block at any point is the whole weight array. -/
theorem read_w (c : Dev nD) (t : Fin cfg0.N) : iblk m c 2 t = V m c main_v0 := by
  funext y
  show V m c main_v0 (((cfg0.win 2).blk t).view.emb y) = V m c main_v0 y
  have e : ((cfg0.win 2).blk t).view.emb y = y := by
    obtain ⟨-, -, -, -, e0, e1, -⟩ := idx_facts t
    funext a; apply Fin.ext
    match a with
    | ⟨0, _⟩ => show win0_2.index t (0 : Fin 2) * 256 + 1 * (y 0).val = (y 0).val; omega
    | ⟨1, _⟩ => show win0_2.index t (1 : Fin 2) * 64 + 1 * (y 1).val = (y 1).val; omega
  rw [e]

theorem read_w' (c : Dev nD) (t : Fin cfg0.N) : iblk m c 3 t = V m c main_v1 := by
  funext y
  show V m c main_v1 (((cfg0.win 3).blk t).view.emb y) = V m c main_v1 y
  have e : ((cfg0.win 3).blk t).view.emb y = y := by
    obtain ⟨-, -, -, -, -, -, e0, e1, -⟩ := idx_facts t
    funext a; apply Fin.ext
    match a with
    | ⟨0, _⟩ => show win0_3.index t (0 : Fin 2) * 256 + 1 * (y 0).val = (y 0).val; omega
    | ⟨1, _⟩ => show win0_3.index t (1 : Fin 2) * 64 + 1 * (y 1).val = (y 1).val; omega
  rw [e]

/-- One stored entry, over variables: if the slabs x0, x1 are rows 4096 T … of xa, xb (T ≤ 15), then the body's
    result at (p, q) is Z re-laid at (2048 T + p, q). Both sit at row-major position 262144 T + 128 p + q. -/
theorem stored_entry (x0 x1 : Vec Ideal S4096x256 .f32) (w w' : Vec Ideal S256x64 .bf16)
    (xa xb : S65536x256.Idx → EReal) (T : Nat) (hT : T ≤ 15)
    (hx : ∀ (r : Fin 4096) (k : Fin 256) (i : S65536x256.Idx), (i 0).val = T * 4096 + r.val → (i 1).val = k.val → x0 (ix2 r k) = xa i)
    (hx' : ∀ (r : Fin 4096) (k : Fin 256) (i : S65536x256.Idx), (i 0).val = T * 4096 + r.val → (i 1).val = k.val → x1 (ix2 r k) = xb i)
    (p : Fin 2048) (q : Fin 128) (i : S32768x128.Idx) (hi0 : (i 0).val = T * 2048 + p.val) (hi1 : (i 1).val = q.val) :
    k0_pay1 (F := Ideal) x0 x1 w w' (ix2 p q) = shapeCast S32768x128 (twoDotsArr 65536 xa xb w w') relay i := by
  rw [payload_at]
  refine ((shapeCast_apply _ relay i (ix2 (n0 := 65536) (n1 := 64) ⟨T * 4096 + (2 * p.val + q.val / 64), by omega⟩ ⟨q.val % 64, by omega⟩) ?_).trans ?_).symm
  · rw [Shape.rowMajor_val_two, Shape.rowMajor_val_two]
    show (T * 4096 + (2 * p.val + q.val / 64)) * 64 + q.val % 64 = (i 0).val * 128 + (i 1).val
    omega
  · unfold twoDotsArr
    exact (twoDots_congr_row x0 x1 xa xb w w' _ _ _ (fun k => hx _ k _ rfl rfl) (fun k => hx' _ k _ rfl rfl)).symm

/-- WHAT POINT t WRITES BACK is its block of Z re-laid. -/
theorem flushed_eq (c : Dev nD) (t : Fin cfg0.N) :
    (dats m 0 c).flushed 4 t = ((cfg0.win 4).blk t).view.read (Elt Ideal) (relaid m c) := by
  show (cfg0.win 4).cut (grid0.coords t) ((dats m 0 c).after 4 t) = _
  rw [after0_4]
  unfold out0_4
  rw [View.canon_unit_zero zeros]
  simp only [View.ld_unit_zero (S := S4096x256) zeros, View.ld_unit_zero (S := S256x64) zeros]
  rw [read_w, read_w']
  obtain ⟨-, -, -, -, -, -, -, -, hT, e1⟩ := idx_facts t
  funext j
  obtain ⟨p, q, rfl⟩ : ∃ (p : Fin 2048) (q : Fin 128), j = ix2 p q := ⟨j 0, j 1, eq_ix2 j⟩
  show k0_pay1 (F := Ideal) (iblk m c 0 t) (iblk m c 1 t) (V m c main_v0) (V m c main_v1) (ix2 p q)
    = relaid m c (((cfg0.win 4).blk t).view.emb (ix2 p q))
  unfold relaid wholeSum
  refine stored_entry (iblk m c 0 t) (iblk m c 1 t) (V m c main_v0) (V m c main_v1) (V m c main_arg0) (V m c main_arg1)
    (win0_4.index t (0 : Fin 2)) hT (fun r k i h0 h1 => read_x m c t r k i h0 h1) (fun r k i h0 h1 => read_x' m c t r k i h0 h1)
    p q (((cfg0.win 4).blk t).view.emb (ix2 p q)) ?_ ?_
  · show win0_4.index t (0 : Fin 2) * 2048 + 1 * p.val = win0_4.index t (0 : Fin 2) * 2048 + p.val; omega
  · show win0_4.index t (1 : Fin 2) * 128 + 1 * q.val = q.val; omega

/-- An index of the output array is in point t's block iff each coordinate is in the block's range on its axis. -/
theorem mem_blk (t : Fin cfg0.N) (i : S32768x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v2).slice (win0_4.rect t)).set ↔ _
  rw [View.set_slice_whole, Rect.mem_set_unit]
  exact Iff.rfl

/-- The blocks cover the output array: row i is in row block i / 2048. -/
theorem cover (i : S32768x128.Idx) : ∃ t : Fin cfg0.N, (cfg0.win 4).flush t = true ∧ i ∈ ((cfg0.win 4).blk t).view.set := by
  have hi0 : (i 0).val < 32768 := (i 0).isLt
  have hi1 : (i 1).val < 128 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- THE OUTPUT ARRAY after the region: Z re-laid as 32768 × 128. -/
theorem final (c : Dev nD) : (dats m 0 c).arrAt 4 cfg0.N = relaid m c :=
  (dats m 0 c).arrAt_eq_of_cover 4 (relaid m c) (fun t _ => flushed_eq m c t) cover

end Cert.KernelIdeal.Blocks

end
-- ==== Proof.WholeRun.lean ====
/-
  The idealized kernel program from its arguments to its result.

  Around the region the host does three things. Before it, each weight is cast to a narrower float format; on the
  extended reals a format change is the identity, so the region stages the weights themselves. After it, the
  32768 × 128 output array is reshaped to 65536 × 64, row-major order kept. The region leaves Z — the two-product
  sum x·w + x'·w' of the four arrays — re-laid as 32768 × 128 in the same order; re-laying there and back is the
  identity, so the program's result is Z of the arguments, and the arguments end as they started.
-/
import proofs.«147001_j76441827934768_2_alg».proof.Proof.Blocks
import Idealize.ShloMosaic.Lib.StableHlo.Run

noncomputable section

namespace Cert.KernelIdeal.WholeRun

open Cert.KernelIdeal Cert.KernelIdeal.Gen Idealize.ShloMosaic Idealize.ShloMosaic.TcCoe Idealize.SL.Sem
open Idealize.ShloMosaic.StableHlo Cert.TwoDots Cert.KernelIdeal.Blocks
open Idealize.ShloMosaic.Pipeline (Dat)

variable (m : (ℓ : Loc nD τ sig) → Buf (Elt Ideal) ℓ) (ρ : Dev nD → PrngReg)

/-- The first weight as the region finds it: the host's cast of the argument, which is the argument. -/
theorem staged_w (c : Dev nD) : (V m c main_v0 : S256x64.Idx → EReal) = m ((c : Thread nD τ).loc main_arg2) := by
  have e : (V m c main_v0 : S256x64.Idx → EReal) = truncf (F := Ideal) .bf16 (m ((c : Thread nD τ).loc main_arg2)) bitsLt_bf16_f32 := by
    show StableHlo.after hostOps0 (fun b => m (c, b)) (Proc.devRef .tc main_v0) = _
    after_results
  rw [e]
  rfl

/-- The second weight likewise. -/
theorem staged_w' (c : Dev nD) : (V m c main_v1 : S256x64.Idx → EReal) = m ((c : Thread nD τ).loc main_arg3) := by
  have e : (V m c main_v1 : S256x64.Idx → EReal) = truncf (F := Ideal) .bf16 (m ((c : Thread nD τ).loc main_arg3)) bitsLt_bf16_f32 := by
    show StableHlo.after hostOps0 (fun b => m (c, b)) (Proc.devRef .tc main_v1) = _
    after_results
  rw [e]
  rfl

/-- Z of the arrays the region stages is Z of the program's arguments. -/
theorem wholeSum_args (c : Dev nD) :
    wholeSum m c = twoDotsArr 65536 (m ((c : Thread nD τ).loc main_arg0)) (m ((c : Thread nD τ).loc main_arg1))
      (m ((c : Thread nD τ).loc main_arg2)) (m ((c : Thread nD τ).loc main_arg3)) := by
  unfold wholeSum
  rw [V_main_arg0, V_main_arg1, staged_w, staged_w']

/-- The program's result after the host's reshape: Z of the arguments. -/
theorem result_eq (c : Dev nD) :
    Pipeline.afterTail₀ cfgs (dats m) 0 (V0 m) [hostOps1] c main_v3
      = twoDotsArr 65536 (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = relaid m c :=
    (Pipeline.withArrays_arr spec0 launch0.win.arr_inj c _ _ 4).trans (final m c)
  rw [hw]
  unfold relaid
  funext i
  show shapeCast S65536x64 (shapeCast S32768x128 (wholeSum m c) relay) shapeCasts_S32768x128_S65536x64 i = _
  rw [shapeCast_shapeCast, wholeSum_args]

/-- THE RUN: every weakly fair execution of the idealized kernel program terminates, with its result at x·w + x'·w'
    of the arguments (all 65536 rows) and the four arguments unchanged. -/
theorem run : θ_run defs (onTc (τ := τ) (main (F := Ideal))) ⟨m, fun _ => 0, ρ⟩ fun r => ∀ c : Dev nD,
      r.2.mem ((c : Thread nD τ).loc main_v3)
        = twoDotsArr 65536 (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.WholeRun

end
-- ==== Proof.lean ====
/-
  The kernel and its reference compute the same function on the extended reals.

  The kernel takes two inputs x, x' (65536 × 256 each) and two weights w, w' (256 × 64 each) and returns
  x·w + x'·w' (65536 × 64). It works on 16 slabs of 4096 rows: for each slab it forms the two products on the
  matrix unit (after narrowing the operands' float format, which changes nothing on the extended reals), adds
  them, and writes the 4096 × 64 sum out as 2048 × 128 — two 64-wide rows per 128-wide row, row-major order kept —
  into a 32768 × 128 array that the host finally reshapes to 65536 × 64. The reference is two whole matrix products
  and a sum.

  Entry (r, c) of either result is  Σ_k x(r, k)·w(k, c) + Σ_k x'(r, k)·w'(k, c)  with k over the 256 contraction
  steps (Proof/TwoDots.lean). For the reference this is a reading of its three operations (Proof/RefIsTwoDots.lean).
  For the kernel: the stored block's entries are those sums over the slab (Proof/Payload.lean); a row of the result
  reads only the same row of the inputs, so a slab's result is the slab of the whole result, and the sixteen
  written blocks tile the output array (Proof/Blocks.lean); the two re-layings, 4096 × 64 → 2048 × 128 in the body
  and 32768 × 128 → 65536 × 64 on the host, keep the row-major order and cancel (Proof/WholeRun.lean). The two
  sides are the same sums of the same products, term for term, so no law of the extended reals beyond that is used
  and the finiteness of the inputs is never needed.

  The three programs terminate with their arguments unchanged: for the two kernel programs this is the generated
  frame; for the reference it is its generated run with the result dropped. Nothing was rewritten in idealizing the
  kernel, so there is nothing to preserve.
-/
import proofs.«147001_j76441827934768_2_alg».proof.Defs
import proofs.«147001_j76441827934768_2_alg».proof.Proof.Gen.Kernel
import proofs.«147001_j76441827934768_2_alg».proof.Proof.Gen.Kernel.Skeleton
import proofs.«147001_j76441827934768_2_alg».proof.Proof.Gen.Kernel.Launch
import proofs.«147001_j76441827934768_2_alg».proof.Proof.Gen.Kernel.Points
import proofs.«147001_j76441827934768_2_alg».proof.Proof.Gen.Kernel.Frame
import proofs.«147001_j76441827934768_2_alg».proof.Proof.Gen.KernelIdeal
import proofs.«147001_j76441827934768_2_alg».proof.Proof.Gen.KernelIdeal.Skeleton
import proofs.«147001_j76441827934768_2_alg».proof.Proof.Gen.KernelIdeal.Launch
import proofs.«147001_j76441827934768_2_alg».proof.Proof.Gen.KernelIdeal.Points
import proofs.«147001_j76441827934768_2_alg».proof.Proof.Gen.KernelIdeal.Frame
import proofs.«147001_j76441827934768_2_alg».proof.Proof.Gen.ReferenceIdeal
import proofs.«147001_j76441827934768_2_alg».proof.Proof.Gen.Pre_finite_inputs
import proofs.«147001_j76441827934768_2_alg».proof.Proof.Gen.ReferenceIdeal.Run
import proofs.«147001_j76441827934768_2_alg».proof.Proof.Gen.ReferenceIdeal.Read
import proofs.«147001_j76441827934768_2_alg».proof.Proof.RefIsTwoDots
import proofs.«147001_j76441827934768_2_alg».proof.Proof.WholeRun
import Idealize.ShloMosaic.Adequacy
import Idealize.ShloMosaic.Init

noncomputable section

namespace Cert.Proof

open Idealize.ShloMosaic Idealize.ShloMosaic.TcCoe Idealize.SL.Sem Cert.TwoDots

/-- The word-level kernel program terminates and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with x·w + x'·w' of those arguments. -/
theorem algebraic : Cert.algebraic_KernelIdeal_ReferenceIdeal := by
  intro m ρ m' ρ' _ hagree
  refine ⟨fun c => twoDotsArr 65536
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.WholeRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
